-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 92
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1, .i32⟩
  | .hbm, ⟨61, _⟩ => ⟨S_, .i32⟩
  | .hbm, ⟨62, _⟩ => ⟨S1600000x1, .i32⟩
  | .hbm, ⟨63, _⟩ => ⟨S1600000x1, .i1⟩
  | .hbm, ⟨64, _⟩ => ⟨S1x1, .i32⟩
  | .hbm, ⟨65, _⟩ => ⟨S1600000x1, .i32⟩
  | .hbm, ⟨66, _⟩ => ⟨S1600000x1, .i1⟩
  | .hbm, ⟨67, _⟩ => ⟨S1600000x1, .i1⟩
  | .hbm, ⟨68, _⟩ => ⟨S_, .i1⟩
  | .hbm, ⟨69, _⟩ => ⟨S1600000, .i1⟩
  | .hbm, ⟨70, _⟩ => ⟨S1600000x128, .f32⟩
  | .hbm, ⟨71, _⟩ => ⟨S1600000x128, .i1⟩
  | .hbm, ⟨72, _⟩ => ⟨S_, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S_, .f32⟩
  | .hbm, ⟨80, _⟩ => ⟨S1600000, .f32⟩
  | .hbm, ⟨81, _⟩ => ⟨S_, .f32⟩
  | .hbm, ⟨82, _⟩ => ⟨S100000, .f32⟩
  | .hbm, ⟨83, _⟩ => ⟨S1600000x1, .i32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_4 : Ref sig .tc := ⟨.hbm, 79, rfl⟩
abbrev main_v22 : Ref sig .tc := ⟨.hbm, 80, rfl⟩
abbrev main_cst_5 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_6 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1, .i32⟩
  | .hbm, ⟨69, _⟩ => ⟨S_, .i32⟩
  | .hbm, ⟨70, _⟩ => ⟨S1600000x1, .i32⟩
  | .hbm, ⟨71, _⟩ => ⟨S1600000x1, .i1⟩
  | .hbm, ⟨72, _⟩ => ⟨S1x1, .i32⟩
  | .hbm, ⟨73, _⟩ => ⟨S1600000x1, .i32⟩
  | .hbm, ⟨74, _⟩ => ⟨S1600000x1, .i1⟩
  | .hbm, ⟨75, _⟩ => ⟨S1600000x1, .i1⟩
  | .hbm, ⟨76, _⟩ => ⟨S_, .i1⟩
  | .hbm, ⟨77, _⟩ => ⟨S1600000, .i1⟩
  | .hbm, ⟨78, _⟩ => ⟨S1600000x128, .f32⟩
  | .hbm, ⟨79, _⟩ => ⟨S1600000x128, .i1⟩
  | .hbm, ⟨80, _⟩ => ⟨S_, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S_, .f32⟩
  | .hbm, ⟨88, _⟩ => ⟨S1600000, .f32⟩
  | .hbm, ⟨89, _⟩ => ⟨S_, .f32⟩
  | .hbm, ⟨90, _⟩ => ⟨S100000, .f32⟩
  | .hbm, ⟨91, _⟩ => ⟨S1600000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_cst : Ref sig .tc := ⟨.hbm, 57, rfl⟩
abbrev main_call1_v0 : Ref sig .tc := ⟨.hbm, 58, rfl⟩
abbrev main_v23 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v24 : Ref sig .tc := ⟨.hbm, 82, rfl⟩
abbrev main_cst_3 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_4 : Ref sig .tc := ⟨.hbm, 87, rfl⟩
abbrev main_v28 : Ref sig .tc := ⟨.hbm, 88, rfl⟩
abbrev main_cst_5 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_cst_6 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, every buffer named.

  The program is two kernel regions among stretches of host operations.  Its buffer contents at each
  boundary are a fold from the launch memory: a stretch applies its operations in order; a region leaves
  its input arrays as it found them and its output array at what the write-backs of its grid points leave,
  every other buffer untouched.  Every weakly fair execution terminates, and in the final state every
  unscoped buffer of a core holds the last boundary's contents.  The result array is one of those buffers,
  and so is each argument array.
-/
import proofs.«100871_j18554258719492_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing
    faulting, and every unscoped buffer `b` of every core `c` ends at the last boundary's contents
    `W7 m ρ c b`: the segments' thread states chain from the launch contents to those, and the last one is
    read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- The result array and the eight argument arrays are unscoped buffers, so the run names each of them: the
    result at the last boundary's contents, each argument at what it was launched with (no host operation and
    no region writes an argument). -/
theorem run_named : θ_run defs (onTc (τ := τ) (main (F := F))) ⟨m, fun _ => 0, ρ⟩ (fun r => ∀ c : Dev nD,
      r.2.mem ((c.tc : Thread nD τ).loc main_v31) = W7 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v31 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)
    (run_all m ρ)

end Cert.KernelIdeal.Hand

end
-- ==== Proof.Layer.lean ====
/-
  One layer of the network, entry by entry, over the extended reals.

  A layer takes the aggregated neighbour features A and the node features X (one row per node, 128 columns),
  two 128 by 128 weight matrices Wl, Wr and a bias row b, and returns at entry (p, q)

      (∑ k, A (p, k) · Wl (k, q)) + (∑ k, X (p, k) · Wr (k, q)) + b q,

  the hidden layer followed by max (·, 0).  Row p of the result depends on row p of A and of X only, so the
  same formula describes a block of rows computed alone.  The two programs add the three summands in different
  orders; addition on the extended reals is commutative and associative, so the orders agree and no finiteness
  of the entries is needed.
-/
import Idealize.ShloMosaic.PureOps.Ideal
import Idealize.ShloMosaic.Lib.ValueIdx

noncomputable section

namespace Cert.Sage

open Idealize.ShloMosaic Idealize.ShloMosaic.ValueIdx

variable {n : ℕ}

/-- Entry (p, q) of the product of an n by 128 matrix with a 128 by 128 matrix. -/
def prod (A : (⟨2, ![n, 128]⟩ : Shape).Idx → EReal) (W : (⟨2, ![128, 128]⟩ : Shape).Idx → EReal) (p : Fin n) (q : Fin 128) : EReal :=
  ∑ k : Fin 128, A (ix2 p k) * W (ix2 k q)

/-- The linear part of a layer at entry (p, q): both products, then the bias. -/
def lin (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin n) (q : Fin 128) : EReal :=
  prod A Wl p q + prod X Wr p q + b (ix1 q)

/-- The hidden layer: the linear part, then max (·, 0), as one array. -/
def hidden (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) : (⟨2, ![n, 128]⟩ : Shape).Idx → EReal :=
  fun i => max (lin A X Wl b Wr (i 0) (i 1)) 0

/-- The output layer: the linear part alone, as one array. -/
def output (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) : (⟨2, ![n, 128]⟩ : Shape).Idx → EReal :=
  fun i => lin A X Wl b Wr (i 0) (i 1)

/-- Adding the bias before the second product or after it gives the same entry. -/
theorem lin_bias_first (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin n) (q : Fin 128) :
    prod A Wl p q + b (ix1 q) + prod X Wr p q = lin A X Wl b Wr p q :=
  add_right_comm _ _ _

theorem hidden_apply (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin n) (q : Fin 128) :
    hidden A X Wl b Wr (ix2 p q) = max (lin A X Wl b Wr p q) 0 := rfl

theorem output_apply (A X : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal) (p : Fin n) (q : Fin 128) :
    output A X Wl b Wr (ix2 p q) = lin A X Wl b Wr p q := rfl

/-- The hidden layer of equal arrays is the same array. -/
theorem hidden_congr {A A' X X' : (⟨2, ![n, 128]⟩ : Shape).Idx → EReal} {Wl Wl' Wr Wr' : (⟨2, ![128, 128]⟩ : Shape).Idx → EReal}
    {b b' : (⟨1, ![128]⟩ : Shape).Idx → EReal} (h1 : A = A') (h2 : X = X') (h3 : Wl = Wl') (h4 : b = b') (h5 : Wr = Wr') :
    hidden A X Wl b Wr = hidden A' X' Wl' b' Wr' := by rw [h1, h2, h3, h4, h5]

/-- The output layer of equal arrays is the same array. -/
theorem output_congr {A A' X X' : (⟨2, ![n, 128]⟩ : Shape).Idx → EReal} {Wl Wl' Wr Wr' : (⟨2, ![128, 128]⟩ : Shape).Idx → EReal}
    {b b' : (⟨1, ![128]⟩ : Shape).Idx → EReal} (h1 : A = A') (h2 : X = X') (h3 : Wl = Wl') (h4 : b = b') (h5 : Wr = Wr') :
    output A X Wl b Wr = output A' X' Wl' b' Wr' := by rw [h1, h2, h3, h4, h5]

end Cert.Sage

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.KernelBody.lean ====
/-
  What each kernel body stores, read at an entry.

  A body loads a 5000-row block of the aggregated features and of the node features, the two weight matrices
  and the bias row, multiplies each block by its matrix on the matrix unit into a zero accumulator, adds the two
  products, adds the bias row to every row, and (in the first kernel) takes the maximum with zero.  Over the
  extended reals a change of float format is the identity and a product into a zero accumulator is the plain
  sum of products, so the stored block is the layer's formula at the block's own rows.
-/
import proofs.«100871_j18554258719492_1_alg».proof.Proof.Gen.KernelIdeal.Skeleton
import proofs.«100871_j18554258719492_1_alg».proof.Proof.Layer
import proofs.«100871_j18554258719492_1_alg».proof.Proof.LibProduct
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The first kernel's stored block at (p, q): the hidden layer's entry of the loaded blocks. -/
theorem pay0_apply (x0 x1 : Vec Ideal S5000x128 .f32) (x2 x4 : Vec Ideal S128x128 .f32) (x3 : Vec Ideal S128 .f32)
    (p : Fin 5000) (q : Fin 128) :
    k0_pay1 (F := Ideal) x0 x1 x2 x4 x3 (ix2 p q) = max (Cert.Sage.lin x0 x1 x2 x3 x4 p q) 0 := by
  unfold k0_pay1
  show max (FloatOps.matmul (F := Ideal) _ none _ _ (constant S5000x128 .f32 0x00000000#32) (ix2 p q)
        + FloatOps.matmul (F := Ideal) _ none _ _ (constant S5000x128 .f32 0x00000000#32) (ix2 p q)
        + broadcastTo S5000x128 (shapeCast S1x128 x3 shapeCasts_S128_S1x128) broadcasts_S1x128_S5000x128 (ix2 p q))
      (Ideal.ofBits .f32 0x00000000#32) = _
  rw [Cert.LibProduct.matmul_zero_apply _ rfl rfl rfl rfl rfl rfl, Cert.LibProduct.matmul_zero_apply _ rfl rfl rfl rfl rfl rfl,
    broadcastTo_1b_ab_apply, shapeCast_a_1a_apply, Ideal.ofBits_zero_f32]
  simp only [shapeCast_self]
  rfl

/-- The second kernel's stored block at (p, q): the output layer's entry of the loaded blocks. -/
theorem pay1_apply (x0 x1 : Vec Ideal S5000x128 .f32) (x2 x4 : Vec Ideal S128x128 .f32) (x3 : Vec Ideal S128 .f32)
    (p : Fin 5000) (q : Fin 128) :
    k1_pay1 (F := Ideal) x0 x1 x2 x4 x3 (ix2 p q) = Cert.Sage.lin x0 x1 x2 x3 x4 p q := by
  unfold k1_pay1
  show FloatOps.matmul (F := Ideal) _ none _ _ (constant S5000x128 .f32 0x00000000#32) (ix2 p q)
        + FloatOps.matmul (F := Ideal) _ none _ _ (constant S5000x128 .f32 0x00000000#32) (ix2 p q)
        + broadcastTo S5000x128 (shapeCast S1x128 x3 shapeCasts_S128_S1x128) broadcasts_S1x128_S5000x128 (ix2 p q) = _
  rw [Cert.LibProduct.matmul_zero_apply _ rfl rfl rfl rfl rfl rfl, Cert.LibProduct.matmul_zero_apply _ rfl rfl rfl rfl rfl rfl,
    broadcastTo_1b_ab_apply, shapeCast_a_1a_apply]
  simp only [shapeCast_self]
  rfl

end Cert.KernelIdeal.Hand

end
-- ==== Proof.KernelBlocks.lean ====
/-
  From blocks to arrays.

  Each kernel region walks twenty grid points; point t loads rows 5000 t … 5000 t + 4999 of the aggregated
  features and of the node features, the whole weight matrices and the bias row, and writes back rows
  5000 t … 5000 t + 4999 of its result.  A layer's entry in row r depends on row r of the two feature arrays
  only, so what point t writes back is block t of the layer's whole-array function; the twenty blocks tile the
  100000 rows, so after the region the result array is that function of the arrays the region found.
-/
import proofs.«100871_j18554258719492_1_alg».proof.Proof.Gen.KernelIdeal.Frame
import proofs.«100871_j18554258719492_1_alg».proof.Proof.KernelBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The first region -/

/-- The index maps over the grid: the two feature windows and the result window sit at row block t, column block 0;
    the weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features' block at point t, read at (y₀, y₁), is the array at row 5000 t + y₀. -/
theorem iblk0_0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_v16 : S100000x128.Idx → Elt Ideal .f32) i := by
  obtain ⟨e0, e1, -⟩ := idx0 t
  unfold iblk0
  rw [View.read_apply]
  refine congrArg (V c main_v16 : S100000x128.Idx → Elt Ideal .f32) ?_
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The node features' block at point t likewise. -/
theorem iblk0_1_apply (c : Dev nD) (t : Fin cfg0.N) (y : S5000x128.Idx) (i : S100000x128.Idx)
    (h0 : (i 0).val = t.val * 5000 + (y 0).val) (h1 : (i 1).val = (y 1).val) :
    (iblk0 V c 1 t : Vec Ideal S5000x128 .f32) y = (V c main_arg0 : S100000x128.Idx → Elt Ideal .f32) i := by
  obtain ⟨-, -, e0, e1, -⟩ := idx0 t
  unfold iblk0
  rw [View.read_apply]
  refine congrArg (V c main_arg0 : S100000x128.Idx → Elt Ideal .f32) ?_
  funext a
  apply Fin.ext
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The left weight matrix's block is the whole matrix at every point. -/
theorem iblk0_2_eq (c : Dev nD) (t : Fin cfg0.N) :
    (iblk0 V c 2 t : Vec Ideal S128x128 .f32) = (V c main_arg2 : S128x128.Idx → Elt Ideal .f32) := by
  obtain ⟨-, -, -, -, e0, e1, -⟩ := idx0 t
  funext y
  unfold iblk0
  rw [View.read_apply]
  refine congrArg (V c main_arg2 : S128x128.Idx → Elt Ideal .f32) ?_
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the whole row. -/
theorem iblk0_3_eq (c : Dev nD) (t : Fin cfg0.N) :
    (iblk0 V c 3 t : Vec Ideal S128 .f32) = (V c main_arg3 : S128.Idx → Elt Ideal .f32) := by
  obtain ⟨-, -, -, -, -, -, e0, -⟩ := idx0 t
  funext y
  unfold iblk0
  rw [View.read_apply]
  refine congrArg (V c main_arg3 : S128.Idx → Elt Ideal .f32) ?_
  funext a
  apply Fin.ext
  match a with
  | ⟨0, _⟩ => show win0_3.index t (0 : Fin 1) * 128 + 1 * (y 0).val = (y 0).val; omega

/-- The right weight matrix's block is the whole matrix. -/
theorem iblk0_4_eq (c : Dev nD) (t : Fin cfg0.N) :
    (iblk0 V c 4 t : Vec Ideal S128x128 .f32) = (V c main_arg4 : S128x128.Idx → Elt Ideal .f32) := by
  obtain ⟨-, -, -, -, -, -, -, e0, e1, -⟩ := idx0 t
  funext y
  unfold iblk0
  rw [View.read_apply]
  refine congrArg (V c main_arg4 : S128x128.Idx → Elt Ideal .f32) ?_
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Row locality of the hidden layer: the body's value at (j₀, j₁) of a block is the layer's entry at (i₀, j₁)
    as soon as row j₀ of each feature block is row i₀ of its array. -/
theorem point0 (A X : Vec Ideal S100000x128 .f32) (x0 x1 : Vec Ideal S5000x128 .f32) (Wl Wr : Vec Ideal S128x128 .f32)
    (b : Vec Ideal S128 .f32) (j : S5000x128.Idx) (i : S100000x128.Idx) (hq : (i 1 : Fin 128) = (j 1 : Fin 128))
    (h0 : ∀ k : Fin 128, x0 (ix2 (j 0) k) = A (ix2 (i 0) k)) (h1 : ∀ k : Fin 128, x1 (ix2 (j 0) k) = X (ix2 (i 0) k)) :
    k0_pay1 (F := Ideal) x0 x1 Wl Wr b j = Cert.Sage.hidden A X Wl b Wr i := by
  refine ((congrArg (k0_pay1 (F := Ideal) x0 x1 Wl Wr b) (eq_ix2 j)).trans (pay0_apply x0 x1 Wl Wr b (j 0) (j 1))).trans ?_
  show max (Cert.Sage.lin x0 x1 Wl b Wr (j 0) (j 1)) 0 = max (Cert.Sage.lin A X Wl b Wr (i 0) (i 1)) 0
  rw [hq]
  unfold Cert.Sage.lin Cert.Sage.prod
  simp only [h0, h1]

/-- What point t writes back is block t of the hidden layer of the arrays the region found. -/
theorem flushed0_eq (c : Dev nD) (t : Fin cfg0.N) :
    (dat0 V c).flushed 5 t = ((cfg0.win 5).blk t).view.read (Elt Ideal)
      (Cert.Sage.hidden (V c main_v16) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [iblk0_2_eq, iblk0_3_eq, iblk0_4_eq]
  obtain ⟨-, -, -, -, -, -, -, -, -, e0, e1⟩ := idx0 t
  funext j
  have r0 : ((((cfg0.win 5).blk t).view.emb j) 0).val = t.val * 5000 + (j 0).val := by
    show win0_5.index t (0 : Fin 2) * 5000 + 1 * (j 0).val = _; omega
  have r1 : ((((cfg0.win 5).blk t).view.emb j) 1).val = (j 1).val := by
    show win0_5.index t (1 : Fin 2) * 128 + 1 * (j 1).val = _; omega
  refine point0 (V c main_v16) (V c main_arg0) (iblk0 V c 0 t) (iblk0 V c 1 t) (V c main_arg2) (V c main_arg4) (V c main_arg3) j
    (((cfg0.win 5).blk t).view.emb j) (Fin.ext r1) (fun k => ?_) (fun k => ?_)
  · exact iblk0_0_apply V c t _ _ r0 rfl
  · exact iblk0_1_apply V c t _ _ r0 rfl

/-- After the region the result array is the hidden layer of the arrays the region found: the twenty blocks tile
    its rows (row r lies in block r / 5000). -/
theorem final0 (c : Dev nD) :
    (dat0 V c).arrAt 5 cfg0.N
      = Cert.Sage.hidden (V c main_v16) (V c main_arg0) (V c main_arg2) (V c main_arg3) (V c main_arg4) :=
  (dat0 V c).arrAt_eq_of_cover 5 _ (fun t _ => flushed0_eq V c t) fun i => by
    have hN : cfg0.N = 20 := N_0
    have hi0 : (i 0).val < 100000 := (i 0).isLt
    have hi1 : (i 1).val < 128 := (i 1).isLt
    let t : Fin cfg0.N := ⟨(i 0).val / 5000, by rw [hN]; omega⟩
    obtain ⟨-, -, -, -, -, -, -, -, -, e0, e1⟩ := idx0 t
    have ht : t.val = (i 0).val / 5000 := rfl
    refine ⟨t, flush0_5 t, ?_⟩
    show i ∈ ((View.whole main_v17).slice (win0_5.rect t)).set
    rw [View.set_slice_whole, Rect.mem_set_unit]
    intro a
    match a with
    | ⟨0, _⟩ => show win0_5.index t (0 : Fin 2) * 5000 ≤ (i 0).val ∧ (i 0).val < win0_5.index t (0 : Fin 2) * 5000 + 5000; omega
    | ⟨1, _⟩ => show win0_5.index t (1 : Fin 2) * 128 ≤ (i 1).val ∧ (i 1).val < win0_5.index t (1 : Fin 2) * 128 + 128; omega

/-! ## The second region -/

/-- The index maps over the grid: the two feature windows and the result window sit at row block t, column block 0;
    the weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregated hidden features' block at point t, read at (y₀, y₁), is the array at row 5000 t + y₀. -/
theorem iblk1_0_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v30 : S100000x128.Idx → Elt Ideal .f32) i := by
  obtain ⟨e0, e1, -⟩ := idx1 t
  unfold iblk1
  rw [View.read_apply]
  refine congrArg (V c main_v30 : S100000x128.Idx → Elt Ideal .f32) ?_
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The hidden features' block at point t likewise. -/
theorem iblk1_1_apply (c : Dev nD) (t : Fin cfg1.N) (y : S5000x128.Idx) (i : S100000x128.Idx)
    (h0 : (i 0).val = t.val * 5000 + (y 0).val) (h1 : (i 1).val = (y 1).val) :
    (iblk1 V c 1 t : Vec Ideal S5000x128 .f32) y = (V c main_v17 : S100000x128.Idx → Elt Ideal .f32) i := by
  obtain ⟨-, -, e0, e1, -⟩ := idx1 t
  unfold iblk1
  rw [View.read_apply]
  refine congrArg (V c main_v17 : S100000x128.Idx → Elt Ideal .f32) ?_
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The left weight matrix's block is the whole matrix at every point. -/
theorem iblk1_2_eq (c : Dev nD) (t : Fin cfg1.N) :
    (iblk1 V c 2 t : Vec Ideal S128x128 .f32) = (V c main_arg5 : S128x128.Idx → Elt Ideal .f32) := by
  obtain ⟨-, -, -, -, e0, e1, -⟩ := idx1 t
  funext y
  unfold iblk1
  rw [View.read_apply]
  refine congrArg (V c main_arg5 : S128x128.Idx → Elt Ideal .f32) ?_
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's block is the whole row. -/
theorem iblk1_3_eq (c : Dev nD) (t : Fin cfg1.N) :
    (iblk1 V c 3 t : Vec Ideal S128 .f32) = (V c main_arg6 : S128.Idx → Elt Ideal .f32) := by
  obtain ⟨-, -, -, -, -, -, e0, -⟩ := idx1 t
  funext y
  unfold iblk1
  rw [View.read_apply]
  refine congrArg (V c main_arg6 : S128.Idx → Elt Ideal .f32) ?_
  funext a
  apply Fin.ext
  match a with
  | ⟨0, _⟩ => show win1_3.index t (0 : Fin 1) * 128 + 1 * (y 0).val = (y 0).val; omega

/-- The right weight matrix's block is the whole matrix. -/
theorem iblk1_4_eq (c : Dev nD) (t : Fin cfg1.N) :
    (iblk1 V c 4 t : Vec Ideal S128x128 .f32) = (V c main_arg7 : S128x128.Idx → Elt Ideal .f32) := by
  obtain ⟨-, -, -, -, -, -, -, e0, e1, -⟩ := idx1 t
  funext y
  unfold iblk1
  rw [View.read_apply]
  refine congrArg (V c main_arg7 : S128x128.Idx → Elt Ideal .f32) ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Row locality of the output layer: the body's value at (j₀, j₁) of a block is the layer's entry at (i₀, j₁)
    as soon as row j₀ of each feature block is row i₀ of its array. -/
theorem point1 (A X : Vec Ideal S100000x128 .f32) (x0 x1 : Vec Ideal S5000x128 .f32) (Wl Wr : Vec Ideal S128x128 .f32)
    (b : Vec Ideal S128 .f32) (j : S5000x128.Idx) (i : S100000x128.Idx) (hq : (i 1 : Fin 128) = (j 1 : Fin 128))
    (h0 : ∀ k : Fin 128, x0 (ix2 (j 0) k) = A (ix2 (i 0) k)) (h1 : ∀ k : Fin 128, x1 (ix2 (j 0) k) = X (ix2 (i 0) k)) :
    k1_pay1 (F := Ideal) x0 x1 Wl Wr b j = Cert.Sage.output A X Wl b Wr i := by
  refine ((congrArg (k1_pay1 (F := Ideal) x0 x1 Wl Wr b) (eq_ix2 j)).trans (pay1_apply x0 x1 Wl Wr b (j 0) (j 1))).trans ?_
  show Cert.Sage.lin x0 x1 Wl b Wr (j 0) (j 1) = Cert.Sage.lin A X Wl b Wr (i 0) (i 1)
  rw [hq]
  unfold Cert.Sage.lin Cert.Sage.prod
  simp only [h0, h1]

/-- What point t writes back is block t of the output layer of the arrays the region found. -/
theorem flushed1_eq (c : Dev nD) (t : Fin cfg1.N) :
    (dat1 V c).flushed 5 t = ((cfg1.win 5).blk t).view.read (Elt Ideal)
      (Cert.Sage.output (V c main_v30) (V c main_v17) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  rw [iblk1_2_eq, iblk1_3_eq, iblk1_4_eq]
  obtain ⟨-, -, -, -, -, -, -, -, -, e0, e1⟩ := idx1 t
  funext j
  have r0 : ((((cfg1.win 5).blk t).view.emb j) 0).val = t.val * 5000 + (j 0).val := by
    show win1_5.index t (0 : Fin 2) * 5000 + 1 * (j 0).val = _; omega
  have r1 : ((((cfg1.win 5).blk t).view.emb j) 1).val = (j 1).val := by
    show win1_5.index t (1 : Fin 2) * 128 + 1 * (j 1).val = _; omega
  refine point1 (V c main_v30) (V c main_v17) (iblk1 V c 0 t) (iblk1 V c 1 t) (V c main_arg5) (V c main_arg7) (V c main_arg6) j
    (((cfg1.win 5).blk t).view.emb j) (Fin.ext r1) (fun k => ?_) (fun k => ?_)
  · exact iblk1_0_apply V c t _ _ r0 rfl
  · exact iblk1_1_apply V c t _ _ r0 rfl

/-- After the region the result array is the output layer of the arrays the region found: the twenty blocks tile
    its rows (row r lies in block r / 5000). -/
theorem final1 (c : Dev nD) :
    (dat1 V c).arrAt 5 cfg1.N
      = Cert.Sage.output (V c main_v30) (V c main_v17) (V c main_arg5) (V c main_arg6) (V c main_arg7) :=
  (dat1 V c).arrAt_eq_of_cover 5 _ (fun t _ => flushed1_eq V c t) fun i => by
    have hN : cfg1.N = 20 := N_1
    have hi0 : (i 0).val < 100000 := (i 0).isLt
    have hi1 : (i 1).val < 128 := (i 1).isLt
    let t : Fin cfg1.N := ⟨(i 0).val / 5000, by rw [hN]; omega⟩
    obtain ⟨-, -, -, -, -, -, -, -, -, e0, e1⟩ := idx1 t
    have ht : t.val = (i 0).val / 5000 := rfl
    refine ⟨t, flush1_5 t, ?_⟩
    show i ∈ ((View.whole main_v31).slice (win1_5.rect t)).set
    rw [View.set_slice_whole, Rect.mem_set_unit]
    intro a
    match a with
    | ⟨0, _⟩ => show win1_5.index t (0 : Fin 2) * 5000 ≤ (i 0).val ∧ (i 0).val < win1_5.index t (0 : Fin 2) * 5000 + 5000; omega
    | ⟨1, _⟩ => show win1_5.index t (1 : Fin 2) * 128 ≤ (i 1).val ∧ (i 1).val < win1_5.index t (1 : Fin 2) * 128 + 128; omega

end Cert.KernelIdeal.Hand

end
-- ==== Proof.Agg.lean ====
/-
  Mean aggregation over the edges, as one function.

  The edge list has two rows: the edges' source nodes and their destination nodes.  A node's aggregated features
  are the sum, over the edges that end at the node, of the source node's feature row, divided by the larger of
  the number of such edges and one.  Both programs compute it with the same host operations: the rows of the
  feature array taken at the source nodes (an index below zero counted from the end, a row whose index falls
  outside the array replaced by a fill value), added into a zero array at the destination nodes, the degrees
  counted by adding ones the same way, the maximum with one, the quotient row by row.  It is stated here once, as
  those operations composed, and is never opened: everything proved about the two programs uses only that both
  apply this one function to equal arguments.
-/
import proofs.«100871_j18554258719492_1_alg».proof.KernelIdeal

noncomputable section

namespace Cert.KernelIdeal.Hand

open Cert.KernelIdeal Cert.KernelIdeal.Facts₀ Idealize.ShloMosaic

variable {F : FTy → Type} [FloatOps F] [Cert.KernelIdeal.Facts]

/-- The edges' source nodes: row 0 of the edge list, as a flat array. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- The edges' destination nodes: row 1 of the edge list, as a flat array. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The node indices as the row lookup takes them: an index below zero has the number of nodes added, and the
    result becomes a column. -/
def lookupIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Which lookups fall inside the array: the index at least 0 and at most 99999. -/
def lookupOk (ix : (⟨S1600000x1, .i32⟩ : BufTy).Contents (Elt F)) : (⟨S1600000, .i1⟩ : BufTy).Contents (Elt F) :=
  Host.reduce IntOp.andi
    (andi (cmpi .sge ix (broadcastInDim S1600000x1 ![] bcast_S_S1600000x1 (constantI S_ 32 0#32)))
      (cmpi .sle ix (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The feature rows at the edges' source nodes, one row per edge; a row looked up outside the array is the fill
    value. -/
def takeRows (x : (⟨S100000x128, .f32⟩ : BufTy).Contents (Elt F)) (src : (⟨S1600000, .i32⟩ : BufTy).Contents (Elt F)) :
    (⟨S1600000x128, .f32⟩ : BufTy).Contents (Elt F) :=
  select (broadcastInDim S1600000x128 ![0] bcast_S1600000_S1600000x128_0 (lookupOk (lookupIdx src)))
    (Host.gather gather_S100000x128_S1600000x1_S1600000x128_1_0_n_n_0_1_1128 x (lookupIdx src))
    (broadcastInDim S1600000x128 ![] bcast_S_S1600000x128 (constant S_ .f32 0x7FC00000#32))

/-- The per-edge rows added into a zero array at the edges' destination nodes. -/
def sumAtDst (dst : (⟨S1600000, .i32⟩ : BufTy).Contents (Elt F)) (msg : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst) msg

/-- Each node's number of incoming edges, at least one, repeated along its row. -/
def degreeRows (dst : (⟨S1600000, .i32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The mean of the neighbours' feature rows, node by node. -/
def meanAgg (x : (⟨S100000x128, .f32⟩ : BufTy).Contents (Elt F)) (src dst : (⟨S1600000, .i32⟩ : BufTy).Contents (Elt F)) :
    (⟨S100000x128, .f32⟩ : BufTy).Contents (Elt F) :=
  Host.divf (sumAtDst dst (takeRows x src)) (degreeRows dst)

end Cert.KernelIdeal.Hand

end
-- ==== Proof.LibTypedRef.lean ====
/-
  Typed references to buffers: contents carried to the buffer's own type and back.

  A helper function's values are named by references that carry the value's type; an operation over such
  references converts its operands from their buffers' types and its result to its buffer's type.  Both
  conversions are transports along the equation "the buffer's type is the value's type", so a value written
  through one reference and read back through the same reference is unchanged.
-/
import Idealize.ShloMosaic.Lib.StableHlo

namespace Cert.LibTypedRef

open Idealize.ShloMosaic

/-- Contents carried to a typed reference's buffer and back are unchanged. -/
theorem ofBuf_toBuf {sig : RefSig} {Val : EltTy → Type} {T : BufTy} (x : StableHlo.TRef sig T) (v : T.Contents Val) :
    x.ofBuf (x.toBuf v) = v := by
  obtain ⟨r, h, hd, hu⟩ := x
  subst h
  rfl

end Cert.LibTypedRef
-- ==== Proof.KernelHost.lean ====
/-
  The host operations around the two kernel regions, read back.

  Before the first region the program splits the edge list into source and destination nodes, looks the feature
  rows up at the source nodes, and takes the mean over each node's incoming edges; between the regions it does the
  same to the hidden features the first region wrote.  Each stretch of operations is a fold over the buffer
  contents it starts from; read at the buffer a stage writes, the fold is that stage's function of the buffers it
  reads, and a buffer no operation of a stretch writes keeps its contents through the stretch.
-/
import proofs.«100871_j18554258719492_1_alg».proof.Proof.Gen.KernelIdeal.Frame
import proofs.«100871_j18554258719492_1_alg».proof.Proof.Agg
import proofs.«100871_j18554258719492_1_alg».proof.Proof.LibTypedRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.LibTypedRef (ofBuf_toBuf)

variable {F : FTy → Type} [FloatOps F]

/-! ## Each stretch at the buffer it computes -/

theorem edges_src (Wg : Valuation τ sig (Elt F)) :
    StableHlo.after hostOps0 Wg (Proc.devRef .tc main_v1) = srcOf (Wg (Proc.devRef .tc main_arg1)) := by
  after_results
  rfl

theorem edges_dst (Wg : Valuation τ sig (Elt F)) :
    StableHlo.after hostOps0 Wg (Proc.devRef .tc main_v3) = dstOf (Wg (Proc.devRef .tc main_arg1)) := by
  after_results
  rfl

attribute [local irreducible] Host.reduce Host.gather Host.scatterAdd in
set_option maxHeartbeats 400000 in
/-- The first lookup: the feature rows at the source nodes. -/
theorem lookup1 (Wg : Valuation τ sig (Elt F)) :
    StableHlo.after hostOps0_1 Wg (Proc.devRef .tc main_v4)
      = takeRows (Wg (Proc.devRef .tc main_arg0)) (Wg (Proc.devRef .tc main_v1)) := by
  after_results_simp
  simp only [ofBuf_toBuf]
  rfl

attribute [local irreducible] Host.reduce Host.gather Host.scatterAdd in
set_option maxHeartbeats 400000 in
/-- The first mean: the looked-up rows summed at the destination nodes over the degrees. -/
theorem mean1 (Wg : Valuation τ sig (Elt F)) :
    StableHlo.after hostOps0_2 Wg (Proc.devRef .tc main_v16)
      = Host.divf (sumAtDst (Wg (Proc.devRef .tc main_v3)) (Wg (Proc.devRef .tc main_v4))) (degreeRows (Wg (Proc.devRef .tc main_v3))) := by
  after_results_simp
  rfl

attribute [local irreducible] Host.reduce Host.gather Host.scatterAdd in
set_option maxHeartbeats 400000 in
/-- The second lookup: the hidden features' rows at the source nodes. -/
theorem lookup2 (Wg : Valuation τ sig (Elt F)) :
    StableHlo.after hostOps1 Wg (Proc.devRef .tc main_v18)
      = takeRows (Wg (Proc.devRef .tc main_v17)) (Wg (Proc.devRef .tc main_v1)) := by
  after_results_simp
  simp only [ofBuf_toBuf]
  rfl

attribute [local irreducible] Host.reduce Host.gather Host.scatterAdd in
set_option maxHeartbeats 400000 in
/-- The second mean. -/
theorem mean2 (Wg : Valuation τ sig (Elt F)) :
    StableHlo.after hostOps1_1 Wg (Proc.devRef .tc main_v30)
      = Host.divf (sumAtDst (Wg (Proc.devRef .tc main_v3)) (Wg (Proc.devRef .tc main_v18))) (degreeRows (Wg (Proc.devRef .tc main_v3))) := by
  after_results_simp
  rfl

/-! ## Buffers a stretch leaves alone -/

/-- Closes "this buffer holds after the stretch what it held before": no operation of the stretch writes it. -/
local macro "unwritten" : tactic => `(tactic| (
  refine StableHlo.after_of_forall_not_mem _ _ (List.forall_iff_forall_mem.mp ?_)
  simp only [hostOps0, hostOps0_1, hostOps0_2, hostOps1, hostOps1_1, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

variable (Wg : Valuation τ sig (Elt F))

theorem edges_arg0 : StableHlo.after hostOps0 Wg (Proc.devRef .tc main_arg0) = Wg (Proc.devRef .tc main_arg0) := by unwritten
theorem edges_arg2 : StableHlo.after hostOps0 Wg (Proc.devRef .tc main_arg2) = Wg (Proc.devRef .tc main_arg2) := by unwritten
theorem edges_arg3 : StableHlo.after hostOps0 Wg (Proc.devRef .tc main_arg3) = Wg (Proc.devRef .tc main_arg3) := by unwritten
theorem edges_arg4 : StableHlo.after hostOps0 Wg (Proc.devRef .tc main_arg4) = Wg (Proc.devRef .tc main_arg4) := by unwritten

theorem lookup1_v1 : StableHlo.after hostOps0_1 Wg (Proc.devRef .tc main_v1) = Wg (Proc.devRef .tc main_v1) := by unwritten
theorem lookup1_v3 : StableHlo.after hostOps0_1 Wg (Proc.devRef .tc main_v3) = Wg (Proc.devRef .tc main_v3) := by unwritten
theorem lookup1_arg0 : StableHlo.after hostOps0_1 Wg (Proc.devRef .tc main_arg0) = Wg (Proc.devRef .tc main_arg0) := by unwritten
theorem lookup1_arg2 : StableHlo.after hostOps0_1 Wg (Proc.devRef .tc main_arg2) = Wg (Proc.devRef .tc main_arg2) := by unwritten
theorem lookup1_arg3 : StableHlo.after hostOps0_1 Wg (Proc.devRef .tc main_arg3) = Wg (Proc.devRef .tc main_arg3) := by unwritten
theorem lookup1_arg4 : StableHlo.after hostOps0_1 Wg (Proc.devRef .tc main_arg4) = Wg (Proc.devRef .tc main_arg4) := by unwritten

theorem mean1_v1 : StableHlo.after hostOps0_2 Wg (Proc.devRef .tc main_v1) = Wg (Proc.devRef .tc main_v1) := by unwritten
theorem mean1_v3 : StableHlo.after hostOps0_2 Wg (Proc.devRef .tc main_v3) = Wg (Proc.devRef .tc main_v3) := by unwritten
theorem mean1_arg0 : StableHlo.after hostOps0_2 Wg (Proc.devRef .tc main_arg0) = Wg (Proc.devRef .tc main_arg0) := by unwritten
theorem mean1_arg2 : StableHlo.after hostOps0_2 Wg (Proc.devRef .tc main_arg2) = Wg (Proc.devRef .tc main_arg2) := by unwritten
theorem mean1_arg3 : StableHlo.after hostOps0_2 Wg (Proc.devRef .tc main_arg3) = Wg (Proc.devRef .tc main_arg3) := by unwritten
theorem mean1_arg4 : StableHlo.after hostOps0_2 Wg (Proc.devRef .tc main_arg4) = Wg (Proc.devRef .tc main_arg4) := by unwritten

theorem lookup2_v1 : StableHlo.after hostOps1 Wg (Proc.devRef .tc main_v1) = Wg (Proc.devRef .tc main_v1) := by unwritten
theorem lookup2_v3 : StableHlo.after hostOps1 Wg (Proc.devRef .tc main_v3) = Wg (Proc.devRef .tc main_v3) := by unwritten
theorem lookup2_v17 : StableHlo.after hostOps1 Wg (Proc.devRef .tc main_v17) = Wg (Proc.devRef .tc main_v17) := by unwritten

theorem mean2_v17 : StableHlo.after hostOps1_1 Wg (Proc.devRef .tc main_v17) = Wg (Proc.devRef .tc main_v17) := by unwritten

end Cert.KernelIdeal.Hand

end
-- ==== Proof.Net.lean ====
/-
  The whole network as one function of the argument arrays.

  Two layers over one graph: the hidden features are the first layer (with its maximum with zero) of the mean of the
  neighbours' input features and the input features; the result is the second layer of the mean of the neighbours'
  hidden features and the hidden features.  Both programs end with this array.
-/
import proofs.«100871_j18554258719492_1_alg».proof.Proof.Gen.KernelIdeal
import proofs.«100871_j18554258719492_1_alg».proof.Proof.Agg
import proofs.«100871_j18554258719492_1_alg».proof.Proof.Layer

noncomputable section

namespace Cert.KernelIdeal.Hand

open Cert.KernelIdeal Idealize.ShloMosaic

/-- The hidden features. -/
def hiddenOf (x : (⟨S100000x128, .f32⟩ : BufTy).Contents (Elt Ideal)) (ei : (⟨S2x1600000, .i32⟩ : BufTy).Contents (Elt Ideal))
    (W1l : (⟨S128x128, .f32⟩ : BufTy).Contents (Elt Ideal)) (b1 : (⟨S128, .f32⟩ : BufTy).Contents (Elt Ideal))
    (W1r : (⟨S128x128, .f32⟩ : BufTy).Contents (Elt Ideal)) : (⟨S100000x128, .f32⟩ : BufTy).Contents (Elt Ideal) :=
  Cert.Sage.hidden (meanAgg x (srcOf ei) (dstOf ei)) x W1l b1 W1r

/-- The network's result. -/
def net (x : (⟨S100000x128, .f32⟩ : BufTy).Contents (Elt Ideal)) (ei : (⟨S2x1600000, .i32⟩ : BufTy).Contents (Elt Ideal))
    (W1l : (⟨S128x128, .f32⟩ : BufTy).Contents (Elt Ideal)) (b1 : (⟨S128, .f32⟩ : BufTy).Contents (Elt Ideal))
    (W1r W2l : (⟨S128x128, .f32⟩ : BufTy).Contents (Elt Ideal)) (b2 : (⟨S128, .f32⟩ : BufTy).Contents (Elt Ideal))
    (W2r : (⟨S128x128, .f32⟩ : BufTy).Contents (Elt Ideal)) : (⟨S100000x128, .f32⟩ : BufTy).Contents (Elt Ideal) :=
  Cert.Sage.output (meanAgg (hiddenOf x ei W1l b1 W1r) (srcOf ei) (dstOf ei)) (hiddenOf x ei W1l b1 W1r) W2l b2 W2r

end Cert.KernelIdeal.Hand

end
-- ==== Proof.KernelValue.lean ====
/-
  What the idealized kernel program computes.

  Following the buffer contents from the launch to the return: the host operations before the first region leave the
  mean of the neighbours' input features; the first region's result array is then the hidden layer of that mean and
  the input features; the host operations between the regions leave the mean of the neighbours' hidden features; the
  second region's result array is the output layer of that mean and the hidden features.  So the program's result is
  the network's function of the argument arrays, and the arguments end as launched.
-/
import proofs.«100871_j18554258719492_1_alg».proof.Proof.KernelRun
import proofs.«100871_j18554258719492_1_alg».proof.Proof.KernelBlocks
import proofs.«100871_j18554258719492_1_alg».proof.Proof.KernelHost
import proofs.«100871_j18554258719492_1_alg».proof.Proof.Net

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the first region -/

theorem W1_src (c : Dev nD) : W1 m ρ c (Proc.devRef .tc main_v1) = srcOf (m ((c : Thread nD τ).loc main_arg1)) := edges_src (W0 m ρ c)
theorem W1_dst (c : Dev nD) : W1 m ρ c (Proc.devRef .tc main_v3) = dstOf (m ((c : Thread nD τ).loc main_arg1)) := edges_dst (W0 m ρ c)
theorem W1_arg0 (c : Dev nD) : W1 m ρ c (Proc.devRef .tc main_arg0) = m ((c : Thread nD τ).loc main_arg0) := edges_arg0 (W0 m ρ c)

theorem W2_rows (c : Dev nD) : W2 m ρ c (Proc.devRef .tc main_v4) = takeRows (m ((c : Thread nD τ).loc main_arg0)) (srcOf (m ((c : Thread nD τ).loc main_arg1))) :=
  (lookup1 (W1 m ρ c)).trans (congrArg₂ takeRows (W1_arg0 m ρ c) (W1_src m ρ c))
theorem W2_dst (c : Dev nD) : W2 m ρ c (Proc.devRef .tc main_v3) = dstOf (m ((c : Thread nD τ).loc main_arg1)) :=
  (lookup1_v3 (W1 m ρ c)).trans (W1_dst m ρ c)

/-- At the first region's entry the aggregated-features array holds the mean of the neighbours' input features. -/
theorem W3_agg (c : Dev nD) : W3 m ρ c (Proc.devRef .tc main_v16)
    = meanAgg (m ((c : Thread nD τ).loc main_arg0)) (srcOf (m ((c : Thread nD τ).loc main_arg1))) (dstOf (m ((c : Thread nD τ).loc main_arg1))) :=
  (mean1 (W2 m ρ c)).trans (congrArg₂ Host.divf (congrArg₂ sumAtDst (W2_dst m ρ c) (W2_rows m ρ c)) (congrArg degreeRows (W2_dst m ρ c)))

theorem W3_src (c : Dev nD) : W3 m ρ c (Proc.devRef .tc main_v1) = srcOf (m ((c : Thread nD τ).loc main_arg1)) :=
  (mean1_v1 (W2 m ρ c)).trans ((lookup1_v1 (W1 m ρ c)).trans (W1_src m ρ c))
theorem W3_dst (c : Dev nD) : W3 m ρ c (Proc.devRef .tc main_v3) = dstOf (m ((c : Thread nD τ).loc main_arg1)) :=
  (mean1_v3 (W2 m ρ c)).trans (W2_dst m ρ c)
theorem W3_arg0 (c : Dev nD) : W3 m ρ c (Proc.devRef .tc main_arg0) = m ((c : Thread nD τ).loc main_arg0) :=
  (mean1_arg0 (W2 m ρ c)).trans ((lookup1_arg0 (W1 m ρ c)).trans (edges_arg0 (W0 m ρ c)))
theorem W3_arg2 (c : Dev nD) : W3 m ρ c (Proc.devRef .tc main_arg2) = m ((c : Thread nD τ).loc main_arg2) :=
  (mean1_arg2 (W2 m ρ c)).trans ((lookup1_arg2 (W1 m ρ c)).trans (edges_arg2 (W0 m ρ c)))
theorem W3_arg3 (c : Dev nD) : W3 m ρ c (Proc.devRef .tc main_arg3) = m ((c : Thread nD τ).loc main_arg3) :=
  (mean1_arg3 (W2 m ρ c)).trans ((lookup1_arg3 (W1 m ρ c)).trans (edges_arg3 (W0 m ρ c)))
theorem W3_arg4 (c : Dev nD) : W3 m ρ c (Proc.devRef .tc main_arg4) = m ((c : Thread nD τ).loc main_arg4) :=
  (mean1_arg4 (W2 m ρ c)).trans ((lookup1_arg4 (W1 m ρ c)).trans (edges_arg4 (W0 m ρ c)))

/-! ## The first region, and up to the second -/

/-- After the first region its result array holds the hidden features. -/
theorem W4_hidden (c : Dev nD) : W4 m ρ c (Proc.devRef .tc main_v17)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 5).trans ((final0 (V3 m ρ) c).trans
    (Cert.Sage.hidden_congr (W3_agg m ρ c) (W3_arg0 m ρ c) (W3_arg2 m ρ c) (W3_arg3 m ρ c) (W3_arg4 m ρ c)))

theorem W4_src (c : Dev nD) : W4 m ρ c (Proc.devRef .tc main_v1) = srcOf (m ((c : Thread nD τ).loc main_arg1)) :=
  (W4_of_ne m ρ c main_v1 (by decide)).trans (W3_src m ρ c)
theorem W4_dst (c : Dev nD) : W4 m ρ c (Proc.devRef .tc main_v3) = dstOf (m ((c : Thread nD τ).loc main_arg1)) :=
  (W4_of_ne m ρ c main_v3 (by decide)).trans (W3_dst m ρ c)

theorem W5_rows (c : Dev nD) : W5 m ρ c (Proc.devRef .tc main_v18)
    = takeRows (hiddenOf (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) :=
  (lookup2 (W4 m ρ c)).trans (congrArg₂ takeRows (W4_hidden m ρ c) (W4_src m ρ c))
theorem W5_dst (c : Dev nD) : W5 m ρ c (Proc.devRef .tc main_v3) = dstOf (m ((c : Thread nD τ).loc main_arg1)) :=
  (lookup2_v3 (W4 m ρ c)).trans (W4_dst m ρ c)
theorem W5_hidden (c : Dev nD) : W5 m ρ c (Proc.devRef .tc main_v17)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (lookup2_v17 (W4 m ρ c)).trans (W4_hidden m ρ c)

/-- At the second region's entry the aggregated-features array holds the mean of the neighbours' hidden features. -/
theorem W6_agg (c : Dev nD) : W6 m ρ c (Proc.devRef .tc main_v30)
    = meanAgg (hiddenOf (m ((c : Thread nD τ).loc main_arg0)) (m ((c : Thread nD τ).loc main_arg1)) (m ((c : Thread nD τ).loc main_arg2)) (m ((c : Thread nD τ).loc main_arg3)) (m ((c : Thread nD τ).loc main_arg4)))
        (srcOf (m ((c : Thread nD τ).loc main_arg1))) (dstOf (m ((c : Thread nD τ).loc main_arg1))) :=
  (mean2 (W5 m ρ c)).trans (congrArg₂ Host.divf (congrArg₂ sumAtDst (W5_dst m ρ c) (W5_rows m ρ c)) (congrArg degreeRows (W5_dst m ρ c)))
theorem W6_hidden (c : Dev nD) : W6 m ρ c (Proc.devRef .tc main_v17)
    = hiddenOf (m ((c : Thread nD τ).loc main_arg0)) (m ((c : Thread nD τ).loc main_arg1)) (m ((c : Thread nD τ).loc main_arg2)) (m ((c : Thread nD τ).loc main_arg3)) (m ((c : Thread nD τ).loc main_arg4)) :=
  (mean2_v17 (W5 m ρ c)).trans (W5_hidden m ρ c)
theorem W6_arg5 (c : Dev nD) : W6 m ρ c (Proc.devRef .tc main_arg5) = m ((c : Thread nD τ).loc main_arg5) :=
  ((W7_arr m ρ c 2).trans (((dat1 (V6 m ρ) c).arrAt_in 2 rfl _).trans (A_eq1 (V6 m ρ) c 2))).symm.trans (W7_main_arg5 m ρ c)
theorem W6_arg6 (c : Dev nD) : W6 m ρ c (Proc.devRef .tc main_arg6) = m ((c : Thread nD τ).loc main_arg6) :=
  ((W7_arr m ρ c 3).trans (((dat1 (V6 m ρ) c).arrAt_in 3 rfl _).trans (A_eq1 (V6 m ρ) c 3))).symm.trans (W7_main_arg6 m ρ c)
theorem W6_arg7 (c : Dev nD) : W6 m ρ c (Proc.devRef .tc main_arg7) = m ((c : Thread nD τ).loc main_arg7) :=
  ((W7_arr m ρ c 4).trans (((dat1 (V6 m ρ) c).arrAt_in 4 rfl _).trans (A_eq1 (V6 m ρ) c 4))).symm.trans (W7_main_arg7 m ρ c)

/-! ## The second region, and the run -/

/-- After the second region its result array holds the network's result. -/
theorem W7_result (c : Dev nD) : W7 m ρ c (Proc.devRef .tc main_v31)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W7_arr m ρ c 5).trans ((final1 (V6 m ρ) c).trans
    (Cert.Sage.output_congr (W6_agg m ρ c) (W6_hidden m ρ c) (W6_arg5 m ρ c) (W6_arg6 m ρ c) (W6_arg7 m ρ c)))

/-- Every weakly fair execution of the idealized kernel program terminates with the result array at the network's
    function of the argument arrays and the argument arrays unchanged. -/
theorem run : θ_run defs (onTc (τ := τ) (main (F := Ideal))) ⟨m, fun _ => 0, ρ⟩ (fun r => ∀ c : Dev nD,
      r.2.mem ((c.tc : Thread nD τ).loc main_v31)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W7_result m ρ c), (h c).2⟩) (run_named m ρ)

end Cert.KernelIdeal.Hand

end
-- ==== Proof.RefRun.lean ====
/-
  The reference program as a straight line of host operations, and its run.

  The reference has no kernel: its entry function is ninety-seven host operations once the three helper functions
  it calls (the row lookup, used twice, with the select inside it; the maximum with zero) are read at their call
  sites over the buffers of each call.  They are listed here in seven stages — the edge list split into source and
  destination nodes; per layer the row lookup, the mean over incoming edges, the dense part — and the entry function
  is their sequence.  Every weakly fair execution then terminates with each buffer at the fold of the operations over
  the launch memory.
-/
import proofs.«100871_j18554258719492_1_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The edge list's two rows as flat arrays: the source nodes and the destination nodes. -/
abbrev opsEdges : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The first layer's row lookup: the features' rows at the source nodes. -/
abbrev opsTake1 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_v1 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1 : StableHlo.TRef sig ⟨S1600000, .i32⟩) main_call0.v2 main_call0.v3 addi,
    StableHlo.TRef.ternary main_call0.v1 main_call0.v3 (.of main_v1 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0 : StableHlo.TRef sig ⟨S100000x128, .f32⟩) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select ]

/-- The first layer's mean: the looked-up rows summed at the destination nodes, divided by the degrees. -/
abbrev opsMean1 : List (HloOp τ sig (Elt F)) :=
  [ StableHlo.nullary main_cst (constant S_ .f32 0x00000000#32),
    StableHlo.unary main_cst main_v5 (broadcastInDim S100000x128 ![] bcast_S_S100000x128 : (⟨S_, .f32⟩ : BufTy).Contents (Elt F) → (⟨S100000x128, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v8 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v11 main_v12 main_v13 (maximumf : (⟨S100000, .f32⟩ : BufTy).Contents (Elt F) → (⟨S100000, .f32⟩ : BufTy).Contents (Elt F) → (⟨S100000, .f32⟩ : BufTy).Contents (Elt F)),
    StableHlo.unary main_v13 main_v14 (broadcastInDim S100000x1 ![0] bcast_S100000_S100000x1_0 : (⟨S100000, .f32⟩ : BufTy).Contents (Elt F) → (⟨S100000x1, .f32⟩ : BufTy).Contents (Elt F)),
    StableHlo.unary main_v14 main_v15 (broadcastInDim S100000x128 ![0, 1] bcast_S100000x1_S100000x128_0_1 : (⟨S100000x1, .f32⟩ : BufTy).Contents (Elt F) → (⟨S100000x128, .f32⟩ : BufTy).Contents (Elt F)),
    StableHlo.binary main_v7 main_v15 main_v16 (Host.divf : (⟨S100000x128, .f32⟩ : BufTy).Contents (Elt F) → (⟨S100000x128, .f32⟩ : BufTy).Contents (Elt F) → (⟨S100000x128, .f32⟩ : BufTy).Contents (Elt F)) ]

/-- The first layer's dense part: both products, the bias between them, then the maximum with zero. -/
abbrev opsDense1 : List (HloOp τ sig (Elt F)) :=
  [ StableHlo.binary main_v16 main_arg2 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v19 main_v20 (addf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v20 main_v21 main_v22 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v22 : StableHlo.TRef sig ⟨S100000x128, .f32⟩) main_call1.v0 main_call1.v1 maximumf ]

/-- The second layer's row lookup, of the hidden features. -/
abbrev opsTake2 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_v1 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_v1 : StableHlo.TRef sig ⟨S1600000, .i32⟩) main_call2.v2 main_call2.v3 addi,
    StableHlo.TRef.ternary main_call2.v1 main_call2.v3 (.of main_v1 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v23 : StableHlo.TRef sig ⟨S100000x128, .f32⟩) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select ]

/-- The second layer's mean. -/
abbrev opsMean2 : List (HloOp τ sig (Elt F)) :=
  [ StableHlo.nullary main_cst_3 (constant S_ .f32 0x00000000#32),
    StableHlo.unary main_cst_3 main_v25 (broadcastInDim S100000x128 ![] bcast_S_S100000x128 : (⟨S_, .f32⟩ : BufTy).Contents (Elt F) → (⟨S100000x128, .f32⟩ : BufTy).Contents (Elt F)),
    StableHlo.unary main_v3 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v28 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v29 (broadcastInDim S100000 ![] bcast_S_S100000 : (⟨S_, .f32⟩ : BufTy).Contents (Elt F) → (⟨S100000, .f32⟩ : BufTy).Contents (Elt F)),
    StableHlo.unary main_v3 main_v30 (broadcastInDim S1600000x1 ![0] bcast_S1600000_S1600000x1_0 : (⟨S1600000, .i32⟩ : BufTy).Contents (Elt F) → (⟨S1600000x1, .i32⟩ : BufTy).Contents (Elt F)),
    StableHlo.ternary main_v29 main_v30 main_v28 main_v31 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v32 (broadcastInDim S100000 ![] bcast_S_S100000 : (⟨S_, .f32⟩ : BufTy).Contents (Elt F) → (⟨S100000, .f32⟩ : BufTy).Contents (Elt F)),
    StableHlo.binary main_v31 main_v32 main_v33 (maximumf : (⟨S100000, .f32⟩ : BufTy).Contents (Elt F) → (⟨S100000, .f32⟩ : BufTy).Contents (Elt F) → (⟨S100000, .f32⟩ : BufTy).Contents (Elt F)),
    StableHlo.unary main_v33 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v35 main_v36 (Host.divf : (⟨S100000x128, .f32⟩ : BufTy).Contents (Elt F) → (⟨S100000x128, .f32⟩ : BufTy).Contents (Elt F) → (⟨S100000x128, .f32⟩ : BufTy).Contents (Elt F)) ]

/-- The second layer's dense part: both products and the bias. -/
abbrev opsDense2 : List (HloOp τ sig (Elt F)) :=
  [ StableHlo.binary main_v36 main_arg5 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.binary main_v23 main_arg7 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v40 main_v41 main_v42 (addf : (⟨S100000x128, .f32⟩ : BufTy).Contents (Elt F) → (⟨S100000x128, .f32⟩ : BufTy).Contents (Elt F) → (⟨S100000x128, .f32⟩ : BufTy).Contents (Elt F)) ]

/-- The entry function's operations, in order. -/
abbrev ops : List (HloOp τ sig (Elt F)) :=
  opsEdges ++ (opsTake1 ++ (opsMean1 ++ (opsDense1 ++ (opsTake2 ++ (opsMean2 ++ opsDense2)))))

-- ninety-seven steps unfolded one after the other
set_option maxRecDepth 8192 in
set_option maxHeartbeats 400000 in
/-- The entry function is that straight line: each helper unfolded at its call and each call's record at its fields,
    both sides are the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsEdges_sub : (opsEdges : List (HloOp τ sig (Elt F))).Forall fun op => op.bufs ⊆ tcRefs τ sig :=
  ⟨unary_bufs_sub .., reshape_bufs_sub .., unary_bufs_sub .., reshape_bufs_sub ..⟩

theorem opsTake1_sub : (opsTake1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsMean1_sub : (opsMean1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsDense1_sub : (opsDense1 : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., unary_bufs_sub .., binary_bufs_sub ..⟩

theorem opsTake2_sub : (opsTake2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsMean2_sub : (opsMean2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem opsDense2_sub : (opsDense2 : List (HloOp τ sig (Elt F))).Forall fun op => op.bufs ⊆ tcRefs τ sig :=
  ⟨binary_bufs_sub .., unary_bufs_sub .., unary_bufs_sub .., binary_bufs_sub .., binary_bufs_sub .., binary_bufs_sub ..⟩

/-- Every operation touches TensorCore buffers only. -/
theorem ops_sub : (ops : List (HloOp τ sig (Elt F))).Forall fun op => op.bufs ⊆ tcRefs τ sig := by
  simp only [ops, List.forall_append]
  exact ⟨opsEdges_sub, opsTake1_sub, opsMean1_sub, opsDense1_sub, opsTake2_sub, opsMean2_sub, opsDense2_sub⟩

/-- The fold of two lists in a row is the second list's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- From any memory with zero counters every weakly fair execution of the reference terminates, and every final state
    has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefHost.lean ====
/-
  The reference's seven stages, each read at the buffer it computes.

  Read at its result, a stage's fold is the stage's function of the buffers it reads: the edge list's rows; the row
  lookup; the mean over incoming edges; the dense part.  The lookup and the mean are the same operations as the
  kernel program's host side, so they are stated with the same functions; the dense parts are left as the
  reference's own operations.  A buffer no operation of a stage writes keeps its contents through the stage.
-/
import proofs.«100871_j18554258719492_1_alg».proof.Proof.RefRun
import proofs.«100871_j18554258719492_1_alg».proof.Proof.Agg
import proofs.«100871_j18554258719492_1_alg».proof.Proof.Gen.KernelIdeal
import proofs.«100871_j18554258719492_1_alg».proof.Proof.LibTypedRef

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.LibTypedRef (ofBuf_toBuf)
open Cert.KernelIdeal.Hand (srcOf dstOf takeRows sumAtDst degreeRows meanAgg)

variable {F : FTy → Type} [FloatOps F]

/-! ## Each stage at the buffer it computes -/

theorem edges_src (Wg : Valuation τ sig (Elt F)) :
    after opsEdges Wg (Proc.devRef .tc main_v1) = srcOf (Wg (Proc.devRef .tc main_arg1)) := by
  after_results
  rfl

theorem edges_dst (Wg : Valuation τ sig (Elt F)) :
    after opsEdges Wg (Proc.devRef .tc main_v3) = dstOf (Wg (Proc.devRef .tc main_arg1)) := by
  after_results
  rfl

attribute [local irreducible] Host.reduce Host.gather Host.scatterAdd in
set_option maxHeartbeats 400000 in
theorem lookup1 (Wg : Valuation τ sig (Elt F)) :
    after opsTake1 Wg (Proc.devRef .tc main_v4) = takeRows (Wg (Proc.devRef .tc main_arg0)) (Wg (Proc.devRef .tc main_v1)) := by
  after_results_simp
  simp only [ofBuf_toBuf]
  rfl

attribute [local irreducible] Host.reduce Host.gather Host.scatterAdd in
set_option maxHeartbeats 400000 in
theorem mean1 (Wg : Valuation τ sig (Elt F)) :
    after opsMean1 Wg (Proc.devRef .tc main_v16)
      = Host.divf (sumAtDst (Wg (Proc.devRef .tc main_v3)) (Wg (Proc.devRef .tc main_v4))) (degreeRows (Wg (Proc.devRef .tc main_v3))) := by
  after_results_simp
  rfl

set_option maxHeartbeats 400000 in
/-- The first dense part: the product with the left matrix, the bias row added to every row, the product of the
    features with the right matrix, the maximum with zero. -/
theorem dense1 (Wg : Valuation τ sig (Elt F)) :
    after opsDense1 Wg (Proc.devRef .tc main_v23)
      = maximumf (addf (addf (Host.dotGeneral dot_S100000x128_S128x128_S100000x128_1_0_0_1_n_n none (Wg (Proc.devRef .tc main_v16)) (Wg (Proc.devRef .tc main_arg2)))
            (broadcastInDim S100000x128 ![0, 1] bcast_S1x128_S100000x128_0_1 (broadcastInDim S1x128 ![1] bcast_S128_S1x128_1 (Wg (Proc.devRef .tc main_arg3)))))
          (Host.dotGeneral dot_S100000x128_S128x128_S100000x128_1_0_0_1_n_n none (Wg (Proc.devRef .tc main_arg0)) (Wg (Proc.devRef .tc main_arg4))))
        (broadcastInDim S100000x128 ![] bcast_S_S100000x128 (constant S_ .f32 0x00000000#32)) := by
  after_results_simp
  simp only [ofBuf_toBuf]
  try rfl

attribute [local irreducible] Host.reduce Host.gather Host.scatterAdd in
set_option maxHeartbeats 400000 in
theorem lookup2 (Wg : Valuation τ sig (Elt F)) :
    after opsTake2 Wg (Proc.devRef .tc main_v24) = takeRows (Wg (Proc.devRef .tc main_v23)) (Wg (Proc.devRef .tc main_v1)) := by
  after_results_simp
  simp only [ofBuf_toBuf]
  rfl

attribute [local irreducible] Host.reduce Host.gather Host.scatterAdd in
set_option maxHeartbeats 400000 in
theorem mean2 (Wg : Valuation τ sig (Elt F)) :
    after opsMean2 Wg (Proc.devRef .tc main_v36)
      = Host.divf (sumAtDst (Wg (Proc.devRef .tc main_v3)) (Wg (Proc.devRef .tc main_v24))) (degreeRows (Wg (Proc.devRef .tc main_v3))) := by
  after_results_simp
  rfl

set_option maxHeartbeats 400000 in
/-- The second dense part: as the first, without the maximum. -/
theorem dense2 (Wg : Valuation τ sig (Elt F)) :
    after opsDense2 Wg (Proc.devRef .tc main_v42)
      = addf (addf (Host.dotGeneral dot_S100000x128_S128x128_S100000x128_1_0_0_1_n_n none (Wg (Proc.devRef .tc main_v36)) (Wg (Proc.devRef .tc main_arg5)))
            (broadcastInDim S100000x128 ![0, 1] bcast_S1x128_S100000x128_0_1 (broadcastInDim S1x128 ![1] bcast_S128_S1x128_1 (Wg (Proc.devRef .tc main_arg6)))))
          (Host.dotGeneral dot_S100000x128_S128x128_S100000x128_1_0_0_1_n_n none (Wg (Proc.devRef .tc main_v23)) (Wg (Proc.devRef .tc main_arg7))) := by
  after_results_simp

/-! ## Buffers a stage leaves alone -/

/-- Closes "this buffer holds after the stage what it held before": no operation of the stage writes it. -/
local macro "unwritten" : tactic => `(tactic| (
  refine after_of_forall_not_mem _ _ (List.forall_iff_forall_mem.mp ?_)
  simp only [opsEdges, opsTake1, opsMean1, opsDense1, opsTake2, opsMean2, opsDense2, List.Forall, nullary_writes, unary_writes,
    binary_writes, ternary_writes, reshape_writes, Finset.mem_singleton]
  repeat' apply And.intro
  all_goals exact devRef_ne_of_ne (by decide)))

variable (Wg : Valuation τ sig (Elt F))

theorem edges_arg0 : after opsEdges Wg (Proc.devRef .tc main_arg0) = Wg (Proc.devRef .tc main_arg0) := by unwritten
theorem edges_arg2 : after opsEdges Wg (Proc.devRef .tc main_arg2) = Wg (Proc.devRef .tc main_arg2) := by unwritten
theorem edges_arg3 : after opsEdges Wg (Proc.devRef .tc main_arg3) = Wg (Proc.devRef .tc main_arg3) := by unwritten
theorem edges_arg4 : after opsEdges Wg (Proc.devRef .tc main_arg4) = Wg (Proc.devRef .tc main_arg4) := by unwritten
theorem edges_arg5 : after opsEdges Wg (Proc.devRef .tc main_arg5) = Wg (Proc.devRef .tc main_arg5) := by unwritten
theorem edges_arg6 : after opsEdges Wg (Proc.devRef .tc main_arg6) = Wg (Proc.devRef .tc main_arg6) := by unwritten
theorem edges_arg7 : after opsEdges Wg (Proc.devRef .tc main_arg7) = Wg (Proc.devRef .tc main_arg7) := by unwritten
theorem lookup1_v1 : after opsTake1 Wg (Proc.devRef .tc main_v1) = Wg (Proc.devRef .tc main_v1) := by unwritten
theorem lookup1_v3 : after opsTake1 Wg (Proc.devRef .tc main_v3) = Wg (Proc.devRef .tc main_v3) := by unwritten
theorem lookup1_arg0 : after opsTake1 Wg (Proc.devRef .tc main_arg0) = Wg (Proc.devRef .tc main_arg0) := by unwritten
theorem lookup1_arg2 : after opsTake1 Wg (Proc.devRef .tc main_arg2) = Wg (Proc.devRef .tc main_arg2) := by unwritten
theorem lookup1_arg3 : after opsTake1 Wg (Proc.devRef .tc main_arg3) = Wg (Proc.devRef .tc main_arg3) := by unwritten
theorem lookup1_arg4 : after opsTake1 Wg (Proc.devRef .tc main_arg4) = Wg (Proc.devRef .tc main_arg4) := by unwritten
theorem lookup1_arg5 : after opsTake1 Wg (Proc.devRef .tc main_arg5) = Wg (Proc.devRef .tc main_arg5) := by unwritten
theorem lookup1_arg6 : after opsTake1 Wg (Proc.devRef .tc main_arg6) = Wg (Proc.devRef .tc main_arg6) := by unwritten
theorem lookup1_arg7 : after opsTake1 Wg (Proc.devRef .tc main_arg7) = Wg (Proc.devRef .tc main_arg7) := by unwritten
theorem mean1_v1 : after opsMean1 Wg (Proc.devRef .tc main_v1) = Wg (Proc.devRef .tc main_v1) := by unwritten
theorem mean1_v3 : after opsMean1 Wg (Proc.devRef .tc main_v3) = Wg (Proc.devRef .tc main_v3) := by unwritten
theorem mean1_arg0 : after opsMean1 Wg (Proc.devRef .tc main_arg0) = Wg (Proc.devRef .tc main_arg0) := by unwritten
theorem mean1_arg2 : after opsMean1 Wg (Proc.devRef .tc main_arg2) = Wg (Proc.devRef .tc main_arg2) := by unwritten
theorem mean1_arg3 : after opsMean1 Wg (Proc.devRef .tc main_arg3) = Wg (Proc.devRef .tc main_arg3) := by unwritten
theorem mean1_arg4 : after opsMean1 Wg (Proc.devRef .tc main_arg4) = Wg (Proc.devRef .tc main_arg4) := by unwritten
theorem mean1_arg5 : after opsMean1 Wg (Proc.devRef .tc main_arg5) = Wg (Proc.devRef .tc main_arg5) := by unwritten
theorem mean1_arg6 : after opsMean1 Wg (Proc.devRef .tc main_arg6) = Wg (Proc.devRef .tc main_arg6) := by unwritten
theorem mean1_arg7 : after opsMean1 Wg (Proc.devRef .tc main_arg7) = Wg (Proc.devRef .tc main_arg7) := by unwritten
theorem dense1_v1 : after opsDense1 Wg (Proc.devRef .tc main_v1) = Wg (Proc.devRef .tc main_v1) := by unwritten
theorem dense1_v3 : after opsDense1 Wg (Proc.devRef .tc main_v3) = Wg (Proc.devRef .tc main_v3) := by unwritten
theorem dense1_arg5 : after opsDense1 Wg (Proc.devRef .tc main_arg5) = Wg (Proc.devRef .tc main_arg5) := by unwritten
theorem dense1_arg6 : after opsDense1 Wg (Proc.devRef .tc main_arg6) = Wg (Proc.devRef .tc main_arg6) := by unwritten
theorem dense1_arg7 : after opsDense1 Wg (Proc.devRef .tc main_arg7) = Wg (Proc.devRef .tc main_arg7) := by unwritten
theorem lookup2_v3 : after opsTake2 Wg (Proc.devRef .tc main_v3) = Wg (Proc.devRef .tc main_v3) := by unwritten
theorem lookup2_v23 : after opsTake2 Wg (Proc.devRef .tc main_v23) = Wg (Proc.devRef .tc main_v23) := by unwritten
theorem lookup2_arg5 : after opsTake2 Wg (Proc.devRef .tc main_arg5) = Wg (Proc.devRef .tc main_arg5) := by unwritten
theorem lookup2_arg6 : after opsTake2 Wg (Proc.devRef .tc main_arg6) = Wg (Proc.devRef .tc main_arg6) := by unwritten
theorem lookup2_arg7 : after opsTake2 Wg (Proc.devRef .tc main_arg7) = Wg (Proc.devRef .tc main_arg7) := by unwritten
theorem mean2_v23 : after opsMean2 Wg (Proc.devRef .tc main_v23) = Wg (Proc.devRef .tc main_v23) := by unwritten
theorem mean2_arg5 : after opsMean2 Wg (Proc.devRef .tc main_arg5) = Wg (Proc.devRef .tc main_arg5) := by unwritten
theorem mean2_arg6 : after opsMean2 Wg (Proc.devRef .tc main_arg6) = Wg (Proc.devRef .tc main_arg6) := by unwritten
theorem mean2_arg7 : after opsMean2 Wg (Proc.devRef .tc main_arg7) = Wg (Proc.devRef .tc main_arg7) := by unwritten

end Cert.ReferenceIdeal.Hand

end
-- ==== Proof.RefValue.lean ====
/-
  What the reference computes.

  Its dense parts are the layer formulas: the host's general product at an entry is the sum of products along the
  shared axis, the bias row repeated over the rows contributes its column's entry, the zero array contributes zero;
  the reference adds the bias before the second product where the layer formula adds it after, which commuting the
  two summands accounts for.  Chaining the seven stages from the launch contents, the result buffer ends at the
  network's function of the argument arrays — the same function the kernel program ends at.
-/
import proofs.«100871_j18554258719492_1_alg».proof.Proof.RefHost
import proofs.«100871_j18554258719492_1_alg».proof.Proof.Net
import proofs.«100871_j18554258719492_1_alg».proof.Proof.LibProduct
import Idealize.ShloMosaic.Lib.Pipeline.Value
import Idealize.ShloMosaic.PureOps.Ideal.Laws

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.SL.Sem Idealize.ShloMosaic.StableHlo
open Cert.KernelIdeal.Hand (srcOf dstOf takeRows sumAtDst degreeRows meanAgg hiddenOf net)

/-! ## The dense parts -/

/-- The bias row, made a one-row matrix and repeated over the rows, read at (p, q): the row's entry q. -/
theorem bias_rows (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply _ bcast_S1x128_S100000x128_0_1 _ (ix2 p q) (ix2 (0 : Fin 1) q) (fun a => by
    match a with
    | ⟨0, _⟩ => rfl
    | ⟨1, _⟩ => rfl)]
  exact broadcastInDim_apply _ bcast_S128_S1x128_1 _ _ (ix1 q) (fun a => by
    match a with
    | ⟨0, _⟩ => rfl)

/-- The zero array read anywhere is zero. -/
theorem zero_rows (p : Fin 100000) (q : Fin 128) :
    broadcastInDim S100000x128 ![] bcast_S_S100000x128 (constant (F := Ideal) S_ .f32 0x00000000#32) (ix2 p q) = 0 := by
  rw [broadcastInDim_apply _ bcast_S_S100000x128 _ (ix2 p q) ix0 (fun a => a.elim0)]
  exact Ideal.ofBits_zero_f32

/-- The first dense part is the hidden layer. -/
theorem dense_hidden (A X : FVec Ideal S100000x128 .f32) (Wl Wr : FVec Ideal S128x128 .f32) (b : FVec Ideal S128 .f32) :
    maximumf (addf (addf (Host.dotGeneral (F := Ideal) dot_S100000x128_S128x128_S100000x128_1_0_0_1_n_n none A Wl)
            (broadcastInDim S100000x128 ![0, 1] bcast_S1x128_S100000x128_0_1 (broadcastInDim S1x128 ![1] bcast_S128_S1x128_1 b)))
          (Host.dotGeneral (F := Ideal) dot_S100000x128_S128x128_S100000x128_1_0_0_1_n_n none X Wr))
        (broadcastInDim S100000x128 ![] bcast_S_S100000x128 (constant (F := Ideal) S_ .f32 0x00000000#32))
      = Cert.Sage.hidden A X Wl b Wr := by
  funext i
  obtain ⟨p, q, rfl⟩ : ∃ (p : Fin 100000) (q : Fin 128), i = ix2 p q := ⟨i 0, i 1, eq_ix2 i⟩
  rw [Cert.Sage.hidden_apply, ← Cert.Sage.lin_bias_first]
  show max (Host.dotGeneral (F := Ideal) dot_S100000x128_S128x128_S100000x128_1_0_0_1_n_n none A Wl (ix2 p q)
        + broadcastInDim S100000x128 ![0, 1] bcast_S1x128_S100000x128_0_1 (broadcastInDim S1x128 ![1] bcast_S128_S1x128_1 b) (ix2 p q)
        + Host.dotGeneral (F := Ideal) dot_S100000x128_S128x128_S100000x128_1_0_0_1_n_n none X Wr (ix2 p q))
      (broadcastInDim S100000x128 ![] bcast_S_S100000x128 (constant (F := Ideal) S_ .f32 0x00000000#32) (ix2 p q)) = _
  rw [Cert.LibProduct.dotGeneral_apply _ rfl rfl rfl rfl rfl rfl, Cert.LibProduct.dotGeneral_apply _ rfl rfl rfl rfl rfl rfl,
    bias_rows, zero_rows]
  rfl

/-- The second dense part is the output layer. -/
theorem dense_output (A X : FVec Ideal S100000x128 .f32) (Wl Wr : FVec Ideal S128x128 .f32) (b : FVec Ideal S128 .f32) :
    addf (addf (Host.dotGeneral (F := Ideal) dot_S100000x128_S128x128_S100000x128_1_0_0_1_n_n none A Wl)
          (broadcastInDim S100000x128 ![0, 1] bcast_S1x128_S100000x128_0_1 (broadcastInDim S1x128 ![1] bcast_S128_S1x128_1 b)))
        (Host.dotGeneral (F := Ideal) dot_S100000x128_S128x128_S100000x128_1_0_0_1_n_n none X Wr)
      = Cert.Sage.output A X Wl b Wr := by
  funext i
  obtain ⟨p, q, rfl⟩ : ∃ (p : Fin 100000) (q : Fin 128), i = ix2 p q := ⟨i 0, i 1, eq_ix2 i⟩
  rw [Cert.Sage.output_apply, ← Cert.Sage.lin_bias_first]
  show Host.dotGeneral (F := Ideal) dot_S100000x128_S128x128_S100000x128_1_0_0_1_n_n none A Wl (ix2 p q)
        + broadcastInDim S100000x128 ![0, 1] bcast_S1x128_S100000x128_0_1 (broadcastInDim S1x128 ![1] bcast_S128_S1x128_1 b) (ix2 p q)
        + Host.dotGeneral (F := Ideal) dot_S100000x128_S128x128_S100000x128_1_0_0_1_n_n none X Wr (ix2 p q) = _
  rw [Cert.LibProduct.dotGeneral_apply _ rfl rfl rfl rfl rfl rfl, Cert.LibProduct.dotGeneral_apply _ rfl rfl rfl rfl rfl rfl, bias_rows]
  rfl

/-! ## The seven stages chained -/

variable (V : Valuation τ sig (Elt Ideal))

/-- The buffer contents after each stage. -/
abbrev U1 : Valuation τ sig (Elt Ideal) := after opsEdges V
abbrev U2 : Valuation τ sig (Elt Ideal) := after opsTake1 (U1 V)
abbrev U3 : Valuation τ sig (Elt Ideal) := after opsMean1 (U2 V)
abbrev U4 : Valuation τ sig (Elt Ideal) := after opsDense1 (U3 V)
abbrev U5 : Valuation τ sig (Elt Ideal) := after opsTake2 (U4 V)
abbrev U6 : Valuation τ sig (Elt Ideal) := after opsMean2 (U5 V)
abbrev U7 : Valuation τ sig (Elt Ideal) := after opsDense2 (U6 V)

theorem ops_fold : after ops V = U7 V := by simp only [ops, after_append]

theorem U1_src : U1 V (Proc.devRef .tc main_v1) = srcOf (V (Proc.devRef .tc main_arg1)) := edges_src V
theorem U1_dst : U1 V (Proc.devRef .tc main_v3) = dstOf (V (Proc.devRef .tc main_arg1)) := edges_dst V
theorem U2_src : U2 V (Proc.devRef .tc main_v1) = srcOf (V (Proc.devRef .tc main_arg1)) := (lookup1_v1 (U1 V)).trans (U1_src V)
theorem U2_dst : U2 V (Proc.devRef .tc main_v3) = dstOf (V (Proc.devRef .tc main_arg1)) := (lookup1_v3 (U1 V)).trans (U1_dst V)
theorem U2_rows : U2 V (Proc.devRef .tc main_v4) = takeRows (V (Proc.devRef .tc main_arg0)) (srcOf (V (Proc.devRef .tc main_arg1))) :=
  (lookup1 (U1 V)).trans (congrArg₂ takeRows (edges_arg0 V) (U1_src V))
theorem U3_src : U3 V (Proc.devRef .tc main_v1) = srcOf (V (Proc.devRef .tc main_arg1)) := (mean1_v1 (U2 V)).trans (U2_src V)
theorem U3_dst : U3 V (Proc.devRef .tc main_v3) = dstOf (V (Proc.devRef .tc main_arg1)) := (mean1_v3 (U2 V)).trans (U2_dst V)
/-- After the first mean: the mean of the neighbours' input features. -/
theorem U3_agg : U3 V (Proc.devRef .tc main_v16) = meanAgg (V (Proc.devRef .tc main_arg0)) (srcOf (V (Proc.devRef .tc main_arg1))) (dstOf (V (Proc.devRef .tc main_arg1))) :=
  (mean1 (U2 V)).trans (congrArg₂ Host.divf (congrArg₂ sumAtDst (U2_dst V) (U2_rows V)) (congrArg degreeRows (U2_dst V)))
theorem U3_arg0 : U3 V (Proc.devRef .tc main_arg0) = V (Proc.devRef .tc main_arg0) :=
  (mean1_arg0 (U2 V)).trans ((lookup1_arg0 (U1 V)).trans (edges_arg0 V))
theorem U3_arg2 : U3 V (Proc.devRef .tc main_arg2) = V (Proc.devRef .tc main_arg2) :=
  (mean1_arg2 (U2 V)).trans ((lookup1_arg2 (U1 V)).trans (edges_arg2 V))
theorem U3_arg3 : U3 V (Proc.devRef .tc main_arg3) = V (Proc.devRef .tc main_arg3) :=
  (mean1_arg3 (U2 V)).trans ((lookup1_arg3 (U1 V)).trans (edges_arg3 V))
theorem U3_arg4 : U3 V (Proc.devRef .tc main_arg4) = V (Proc.devRef .tc main_arg4) :=
  (mean1_arg4 (U2 V)).trans ((lookup1_arg4 (U1 V)).trans (edges_arg4 V))
theorem U3_arg5 : U3 V (Proc.devRef .tc main_arg5) = V (Proc.devRef .tc main_arg5) :=
  (mean1_arg5 (U2 V)).trans ((lookup1_arg5 (U1 V)).trans (edges_arg5 V))
theorem U3_arg6 : U3 V (Proc.devRef .tc main_arg6) = V (Proc.devRef .tc main_arg6) :=
  (mean1_arg6 (U2 V)).trans ((lookup1_arg6 (U1 V)).trans (edges_arg6 V))
theorem U3_arg7 : U3 V (Proc.devRef .tc main_arg7) = V (Proc.devRef .tc main_arg7) :=
  (mean1_arg7 (U2 V)).trans ((lookup1_arg7 (U1 V)).trans (edges_arg7 V))

/-- After the first dense part: the hidden features. -/
theorem U4_hidden : U4 V (Proc.devRef .tc main_v23) = hiddenOf (V (Proc.devRef .tc main_arg0)) (V (Proc.devRef .tc main_arg1)) (V (Proc.devRef .tc main_arg2)) (V (Proc.devRef .tc main_arg3)) (V (Proc.devRef .tc main_arg4)) :=
  (dense1 (U3 V)).trans ((dense_hidden _ _ _ _ _).trans
    (Cert.Sage.hidden_congr (U3_agg V) (U3_arg0 V) (U3_arg2 V) (U3_arg3 V) (U3_arg4 V)))
theorem U4_src : U4 V (Proc.devRef .tc main_v1) = srcOf (V (Proc.devRef .tc main_arg1)) := (dense1_v1 (U3 V)).trans (U3_src V)
theorem U4_dst : U4 V (Proc.devRef .tc main_v3) = dstOf (V (Proc.devRef .tc main_arg1)) := (dense1_v3 (U3 V)).trans (U3_dst V)
theorem U4_arg5 : U4 V (Proc.devRef .tc main_arg5) = V (Proc.devRef .tc main_arg5) := (dense1_arg5 (U3 V)).trans (U3_arg5 V)
theorem U4_arg6 : U4 V (Proc.devRef .tc main_arg6) = V (Proc.devRef .tc main_arg6) := (dense1_arg6 (U3 V)).trans (U3_arg6 V)
theorem U4_arg7 : U4 V (Proc.devRef .tc main_arg7) = V (Proc.devRef .tc main_arg7) := (dense1_arg7 (U3 V)).trans (U3_arg7 V)

theorem U5_rows : U5 V (Proc.devRef .tc main_v24) = takeRows (hiddenOf (V (Proc.devRef .tc main_arg0)) (V (Proc.devRef .tc main_arg1)) (V (Proc.devRef .tc main_arg2)) (V (Proc.devRef .tc main_arg3)) (V (Proc.devRef .tc main_arg4))) (srcOf (V (Proc.devRef .tc main_arg1))) :=
  (lookup2 (U4 V)).trans (congrArg₂ takeRows (U4_hidden V) (U4_src V))
theorem U5_dst : U5 V (Proc.devRef .tc main_v3) = dstOf (V (Proc.devRef .tc main_arg1)) := (lookup2_v3 (U4 V)).trans (U4_dst V)
theorem U5_hidden : U5 V (Proc.devRef .tc main_v23) = hiddenOf (V (Proc.devRef .tc main_arg0)) (V (Proc.devRef .tc main_arg1)) (V (Proc.devRef .tc main_arg2)) (V (Proc.devRef .tc main_arg3)) (V (Proc.devRef .tc main_arg4)) := (lookup2_v23 (U4 V)).trans (U4_hidden V)
theorem U5_arg5 : U5 V (Proc.devRef .tc main_arg5) = V (Proc.devRef .tc main_arg5) := (lookup2_arg5 (U4 V)).trans (U4_arg5 V)
theorem U5_arg6 : U5 V (Proc.devRef .tc main_arg6) = V (Proc.devRef .tc main_arg6) := (lookup2_arg6 (U4 V)).trans (U4_arg6 V)
theorem U5_arg7 : U5 V (Proc.devRef .tc main_arg7) = V (Proc.devRef .tc main_arg7) := (lookup2_arg7 (U4 V)).trans (U4_arg7 V)

/-- After the second mean: the mean of the neighbours' hidden features. -/
theorem U6_agg : U6 V (Proc.devRef .tc main_v36) = meanAgg (hiddenOf (V (Proc.devRef .tc main_arg0)) (V (Proc.devRef .tc main_arg1)) (V (Proc.devRef .tc main_arg2)) (V (Proc.devRef .tc main_arg3)) (V (Proc.devRef .tc main_arg4))) (srcOf (V (Proc.devRef .tc main_arg1))) (dstOf (V (Proc.devRef .tc main_arg1))) :=
  (mean2 (U5 V)).trans (congrArg₂ Host.divf (congrArg₂ sumAtDst (U5_dst V) (U5_rows V)) (congrArg degreeRows (U5_dst V)))
theorem U6_hidden : U6 V (Proc.devRef .tc main_v23) = hiddenOf (V (Proc.devRef .tc main_arg0)) (V (Proc.devRef .tc main_arg1)) (V (Proc.devRef .tc main_arg2)) (V (Proc.devRef .tc main_arg3)) (V (Proc.devRef .tc main_arg4)) := (mean2_v23 (U5 V)).trans (U5_hidden V)
theorem U6_arg5 : U6 V (Proc.devRef .tc main_arg5) = V (Proc.devRef .tc main_arg5) := (mean2_arg5 (U5 V)).trans (U5_arg5 V)
theorem U6_arg6 : U6 V (Proc.devRef .tc main_arg6) = V (Proc.devRef .tc main_arg6) := (mean2_arg6 (U5 V)).trans (U5_arg6 V)
theorem U6_arg7 : U6 V (Proc.devRef .tc main_arg7) = V (Proc.devRef .tc main_arg7) := (mean2_arg7 (U5 V)).trans (U5_arg7 V)

/-- The result buffer after all ninety-seven operations: the network's function of the argument buffers. -/
theorem result_eq : after ops V (Proc.devRef .tc main_v42)
    = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_fold]
  exact (dense2 (U6 V)).trans ((dense_output _ _ _ _ _).trans
    (Cert.Sage.output_congr (U6_agg V) (U6_hidden V) (U6_arg5 V) (U6_arg6 V) (U6_arg7 V)))

/-! ## No operation writes an argument -/

local macro "unwritten_all" : tactic => `(tactic| (
  refine after_of_forall_not_mem _ _ (List.forall_iff_forall_mem.mp ?_)
  simp only [ops, opsEdges, opsTake1, opsMean1, opsDense1, opsTake2, opsMean2, opsDense2, List.cons_append, List.nil_append, List.Forall,
    nullary_writes, unary_writes, binary_writes, ternary_writes, reshape_writes, Finset.mem_singleton]
  repeat' apply And.intro
  all_goals exact devRef_ne_of_ne (by decide)))

theorem ops_arg0 : after ops V (Proc.devRef .tc main_arg0) = V (Proc.devRef .tc main_arg0) := by unwritten_all
theorem ops_arg1 : after ops V (Proc.devRef .tc main_arg1) = V (Proc.devRef .tc main_arg1) := by unwritten_all
theorem ops_arg2 : after ops V (Proc.devRef .tc main_arg2) = V (Proc.devRef .tc main_arg2) := by unwritten_all
theorem ops_arg3 : after ops V (Proc.devRef .tc main_arg3) = V (Proc.devRef .tc main_arg3) := by unwritten_all
theorem ops_arg4 : after ops V (Proc.devRef .tc main_arg4) = V (Proc.devRef .tc main_arg4) := by unwritten_all
theorem ops_arg5 : after ops V (Proc.devRef .tc main_arg5) = V (Proc.devRef .tc main_arg5) := by unwritten_all
theorem ops_arg6 : after ops V (Proc.devRef .tc main_arg6) = V (Proc.devRef .tc main_arg6) := by unwritten_all
theorem ops_arg7 : after ops V (Proc.devRef .tc main_arg7) = V (Proc.devRef .tc main_arg7) := by unwritten_all

/-! ## The run -/

/-- Every weakly fair execution of the reference terminates with the result array at the network's function of the
    argument arrays and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v42)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c main_v42).trans (result_eq (launchContents m c)),
       (h c main_arg0).trans (ops_arg0 (launchContents m c)),
       (h c main_arg1).trans (ops_arg1 (launchContents m c)),
       (h c main_arg2).trans (ops_arg2 (launchContents m c)),
       (h c main_arg3).trans (ops_arg3 (launchContents m c)),
       (h c main_arg4).trans (ops_arg4 (launchContents m c)),
       (h c main_arg5).trans (ops_arg5 (launchContents m c)),
       (h c main_arg6).trans (ops_arg6 (launchContents m c)),
       (h c main_arg7).trans (ops_arg7 (launchContents m c))⟩)
    (run_main m ρ)

end Cert.ReferenceIdeal.Hand

end
-- ==== Proof.lean ====
/-
  The kernel computes the reference's network.

  The network is two graph layers: each layer averages every node's neighbours' features over the edge list, multiplies
  the averages and the node's own features by two weight matrices, adds a bias row, and (first layer) takes the maximum
  with zero.  The kernel program computes the averages with host operations and each layer's dense part in a kernel region
  that walks the rows in twenty blocks of 5000; the reference computes everything with host operations.  Over the
  extended reals both end with the same function of the argument arrays: the averaging is the same operations on equal
  arguments, a block of a layer's rows computed alone is that block of the whole layer, and the two programs differ only
  in the order in which the bias and the second product are added, which addition's commutativity and associativity
  absorb.  No finiteness of the inputs is used.  The three programs terminate without fault and leave their arguments
  unchanged; the idealized kernel is the printed kernel read over the extended reals, with no rewrite to account for.
-/
import proofs.«100871_j18554258719492_1_alg».proof.Defs
import proofs.«100871_j18554258719492_1_alg».proof.Proof.Gen.Kernel
import proofs.«100871_j18554258719492_1_alg».proof.Proof.Gen.Kernel.Frame
import proofs.«100871_j18554258719492_1_alg».proof.Proof.Gen.KernelIdeal
import proofs.«100871_j18554258719492_1_alg».proof.Proof.Gen.KernelIdeal.Frame
import proofs.«100871_j18554258719492_1_alg».proof.Proof.Gen.ReferenceIdeal
import proofs.«100871_j18554258719492_1_alg».proof.Proof.Gen.Pre_finite_inputs
import proofs.«100871_j18554258719492_1_alg».proof.Proof.KernelValue
import proofs.«100871_j18554258719492_1_alg».proof.Proof.RefValue
import Idealize.ShloMosaic.Adequacy
import Idealize.ShloMosaic.Init

noncomputable section

namespace Cert.Proof

open Idealize.ShloMosaic Idealize.SL.Sem

/-- The printed kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Hand.run m ρ)

/-- From memories that agree on the arguments both programs end with the network's function of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
